-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512x4 : Shape := ⟨4, ![32, 512, 512, 4]⟩
abbrev S1x8x8x4 : Shape := ⟨4, ![1, 8, 8, 4]⟩
abbrev S_ : Shape := ⟨0, ![]⟩

class Facts : Prop where
  bcast_S_S32x512x512x4 : S_.BroadcastsInDim S32x512x512x4 (![] : Fin 0 → Fin S32x512x512x4.rank)
  reducesTo_S32x512x512x4_S_d0_1_2_3 : S32x512x512x4.ReducesTo [0, 1, 2, 3] S_
  h_S_ : 0 < S_.numel
  bcast_S_S1x8x8x4 : S_.BroadcastsInDim S1x8x8x4 (![] : Fin 0 → Fin S1x8x8x4.rank)
  reducesTo_S1x8x8x4_S_d0_1_2_3 : S1x8x8x4.ReducesTo [0, 1, 2, 3] S_

variable [Facts]

def fn {F : FTy → Type} [FloatOps F] (main_arg0 : FVec F S32x512x512x4 .f32) (main_arg1 : FVec F S1x8x8x4 .f32) (main_arg2 : FVec F S1x8x8x4 .f32) : IVec S_ 1 :=
  let main_v0 : FVec F S32x512x512x4 .f32 := Host.absf main_arg0
  let main_cst : FVec F S_ .f32 := constant S_ .f32 0x7F800000#32
  let main_v1 : FVec F S32x512x512x4 .f32 := broadcastInDim S32x512x512x4 ![] bcast_S_S32x512x512x4 main_cst
  let main_v2 : IVec S32x512x512x4 1 := cmpf .olt main_v0 main_v1
  let main_c : IVec S_ 1 := constantI S_ 1 1#1
  let main_v3 : IVec S_ 1 := (fun x v => Host.reduce IntOp.andi x v reducesTo_S32x512x512x4_S_d0_1_2_3 h_S_) main_v2 main_c
  let main_v4 : FVec F S1x8x8x4 .f32 := Host.absf main_arg1
  let main_cst_0 : FVec F S_ .f32 := constant S_ .f32 0x7F800000#32
  let main_v5 : FVec F S1x8x8x4 .f32 := broadcastInDim S1x8x8x4 ![] bcast_S_S1x8x8x4 main_cst_0
  let main_v6 : IVec S1x8x8x4 1 := cmpf .olt main_v4 main_v5
  let main_c_1 : IVec S_ 1 := constantI S_ 1 1#1
  let main_v7 : IVec S_ 1 := (fun x v => Host.reduce IntOp.andi x v reducesTo_S1x8x8x4_S_d0_1_2_3 h_S_) main_v6 main_c_1
  let main_v8 : IVec S_ 1 := andi main_v3 main_v7
  let main_v9 : FVec F S1x8x8x4 .f32 := Host.absf main_arg2
  let main_cst_2 : FVec F S_ .f32 := constant S_ .f32 0x7F800000#32
  let main_v10 : FVec F S1x8x8x4 .f32 := broadcastInDim S1x8x8x4 ![] bcast_S_S1x8x8x4 main_cst_2
  let main_v11 : IVec S1x8x8x4 1 := cmpf .olt main_v9 main_v10
  let main_c_3 : IVec S_ 1 := constantI S_ 1 1#1
  let main_v12 : IVec S_ 1 := (fun x v => Host.reduce IntOp.andi x v reducesTo_S1x8x8x4_S_d0_1_2_3 h_S_) main_v11 main_c_3
  let main_v13 : IVec S_ 1 := andi main_v8 main_v12
  main_v13
-- ==== Kernel.lean ====
abbrev S32x512x512x4 : Shape := ⟨4, ![32, 512, 512, 4]⟩
abbrev S1x8x8x4 : Shape := ⟨4, ![1, 8, 8, 4]⟩
abbrev S_ : Shape := ⟨0, ![]⟩
abbrev S8x8x4 : Shape := ⟨3, ![8, 8, 4]⟩
abbrev S1x8x1x8x1x4 : Shape := ⟨6, ![1, 8, 1, 8, 1, 4]⟩
abbrev S64x8x64x8x1x4 : Shape := ⟨6, ![64, 8, 64, 8, 1, 4]⟩
abbrev S512x512x4 : Shape := ⟨3, ![512, 512, 4]⟩
abbrev S4x512x512 : Shape := ⟨3, ![4, 512, 512]⟩
abbrev S32x4x512x512 : Shape := ⟨4, ![32, 4, 512, 512]⟩
abbrev S32x512x512 : Shape := ⟨3, ![32, 512, 512]⟩
abbrev S4x1x512x512 : Shape := ⟨4, ![4, 1, 512, 512]⟩
abbrev S1x512x512 : Shape := ⟨3, ![1, 512, 512]⟩
abbrev S512x512 : Shape := ⟨2, ![512, 512]⟩
abbrev S32x512x512x1 : Shape := ⟨4, ![32, 512, 512, 1]⟩

abbrev nBuf : Space → Nat
  | .hbm => 34
  | .vmem => 6
  | .smem => 0
  | _ => 0

abbrev bufTy : (tb : Table) → Fin (tcTables nBuf tb) → BufTy
  | .hbm, ⟨0, _⟩ => ⟨S32x512x512x4, .f32⟩
  | .hbm, ⟨1, _⟩ => ⟨S1x8x8x4, .f32⟩
  | .hbm, ⟨2, _⟩ => ⟨S1x8x8x4, .f32⟩
  | .hbm, ⟨3, _⟩ => ⟨S_, .f32⟩
  | .hbm, ⟨4, _⟩ => ⟨S1x8x8x4, .f32⟩
  | .hbm, ⟨5, _⟩ => ⟨S1x8x8x4, .f32⟩
  | .hbm, ⟨6, _⟩ => ⟨S1x8x8x4, .f32⟩
  | .hbm, ⟨7, _⟩ => ⟨S1x8x8x4, .f32⟩
  | .hbm, ⟨8, _⟩ => ⟨S_, .f32⟩
  | .hbm, ⟨9, _⟩ => ⟨S1x8x8x4, .f32⟩
  | .hbm, ⟨10, _⟩ => ⟨S1x8x8x4, .f32⟩
  | .hbm, ⟨11, _⟩ => ⟨S_, .f32⟩
  | .hbm, ⟨12, _⟩ => ⟨S1x8x8x4, .f32⟩
  | .hbm, ⟨13, _⟩ => ⟨S1x8x8x4, .f32⟩
  | .hbm, ⟨14, _⟩ => ⟨S1x8x8x4, .f32⟩
  | .hbm, ⟨15, _⟩ => ⟨S_, .f32⟩
  | .hbm, ⟨16, _⟩ => ⟨S1x8x8x4, .f32⟩
  | .hbm, ⟨17, _⟩ => ⟨S1x8x8x4, .f32⟩
  | .hbm, ⟨18, _⟩ => ⟨S1x8x8x4, .f32⟩
  | .hbm, ⟨19, _⟩ => ⟨S1x8x8x4, .f32⟩
  | .hbm, ⟨20, _⟩ => ⟨S_, .f32⟩
  | .hbm, ⟨21, _⟩ => ⟨S1x8x8x4, .f32⟩
  | .hbm, ⟨22, _⟩ => ⟨S1x8x8x4, .f32⟩
  | .hbm, ⟨23, _⟩ => ⟨S_, .f32⟩
  | .hbm, ⟨24, _⟩ => ⟨S1x8x8x4, .f32⟩
  | .hbm, ⟨25, _⟩ => ⟨S1x8x8x4, .f32⟩
  | .hbm, ⟨26, _⟩ => ⟨S8x8x4, .f32⟩
  | .hbm, ⟨27, _⟩ => ⟨S1x8x1x8x1x4, .f32⟩
  | .hbm, ⟨28, _⟩ => ⟨S64x8x64x8x1x4, .f32⟩
  | .hbm, ⟨29, _⟩ => ⟨S512x512x4, .f32⟩
  | .hbm, ⟨30, _⟩ => ⟨S4x512x512, .f32⟩
  | .hbm, ⟨31, _⟩ => ⟨S32x4x512x512, .f32⟩
  | .hbm, ⟨32, _⟩ => ⟨S32x512x512, .f32⟩
  | .hbm, ⟨33, _⟩ => ⟨S32x512x512x1, .f32⟩
  | .local _ .vmem, ⟨0, _⟩ => ⟨S4x1x512x512, .f32⟩
  | .local _ .vmem, ⟨1, _⟩ => ⟨S4x1x512x512, .f32⟩
  | .local _ .vmem, ⟨2, _⟩ => ⟨S1x512x512, .f32⟩
  | .local _ .vmem, ⟨3, _⟩ => ⟨S1x512x512, .f32⟩
  | .local _ .vmem, ⟨4, _⟩ => ⟨S4x512x512, .f32⟩
  | .local _ .vmem, ⟨5, _⟩ => ⟨S4x512x512, .f32⟩
  | _, _ => ⟨S32x512x512x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S1x8x8x4 : S_.BroadcastsInDim S1x8x8x4 (![] : Fin 0 → Fin S1x8x8x4.rank)
  shapeCasts_S1x8x8x4_S8x8x4 : S1x8x8x4.ShapeCasts S8x8x4
  shapeCasts_S8x8x4_S1x8x1x8x1x4 : S8x8x4.ShapeCasts S1x8x1x8x1x4
  bcast_S1x8x1x8x1x4_S64x8x64x8x1x4_0_1_2_3_4_5 : S1x8x1x8x1x4.BroadcastsInDim S64x8x64x8x1x4 (![0, 1, 2, 3, 4, 5] : Fin 6 → Fin S64x8x64x8x1x4.rank)
  shapeCasts_S64x8x64x8x1x4_S512x512x4 : S64x8x64x8x1x4.ShapeCasts S512x512x4
  transposes_S512x512x4_S4x512x512_2_0_1 : S512x512x4.Transposes [2, 0, 1] S4x512x512
  transposes_S32x512x512x4_S32x4x512x512_0_3_1_2 : S32x512x512x4.Transposes [0, 3, 1, 2] S32x4x512x512
  inb_S4x512x512_S4x512x512_0_0_0 : ∀ a, (![0, 0, 0] : Fin 3 → Nat) a + S4x512x512.size a ≤ S4x512x512.size a
  h_S4x512x512 : 0 < S4x512x512.numel
  shapeCasts_S4x512x512_S4x512x512 : S4x512x512.ShapeCasts S4x512x512
  inb_S4x1x512x512_S4x1x512x512_0_0_0_0 : ∀ a, (![0, 0, 0, 0] : Fin 4 → Nat) a + S4x1x512x512.size a ≤ S4x1x512x512.size a
  h_S4x1x512x512 : 0 < S4x1x512x512.numel
  shapeCasts_S4x1x512x512_S4x512x512 : S4x1x512x512.ShapeCasts S4x512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  broadcasts_S1x512x512_S4x512x512 : S1x512x512.Broadcasts S4x512x512
  bcast_S32x512x512_S32x512x512x1_0_1_2 : S32x512x512.BroadcastsInDim S32x512x512x1 (![0, 1, 2] : Fin 3 → Fin S32x512x512x1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1x512x512.size a ≤ S32x4x512x512.size a
  hwx0_0 : ∀ i : grid0.Coords, EltTy.bits .f32 = 32 ∨ (Rect.block (s := S32x4x512x512) S4x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S4x512x512.size a
  hwx0_1 : ∀ i : grid0.Coords, EltTy.bits .f32 = 32 ∨ (Rect.block (s := S4x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512x512.size a ≤ S32x512x512.size a
  hwx0_2 : ∀ i : grid0.Coords, EltTy.bits .f32 = 32 ∨ (Rect.block (s := S32x512x512) S4x512x512.size (cc0_transform_2 i) (hinb0_2 i)).WholeWords (EltTy.packing .f32)

variable [Facts₀]

abbrev win0_0 : Pipeline.Window sig grid0 :=
  Pipeline.Window.ofSpec (Memref.whole main_v22) S4x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S4x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x512x512x4 : Shape := ⟨4, ![32, 512, 512, 4]⟩
abbrev S1x8x8x4 : Shape := ⟨4, ![1, 8, 8, 4]⟩
abbrev S_ : Shape := ⟨0, ![]⟩
abbrev S1x1x1x8x1x8x1x4 : Shape := ⟨8, ![1, 1, 1, 8, 1, 8, 1, 4]⟩
abbrev S1x1x64x8x64x8x1x4 : Shape := ⟨8, ![1, 1, 64, 8, 64, 8, 1, 4]⟩
abbrev S1x512x512x4 : Shape := ⟨4, ![1, 512, 512, 4]⟩
abbrev S32x512x512 : Shape := ⟨3, ![32, 512, 512]⟩
abbrev S32x512x512x1 : Shape := ⟨4, ![32, 512, 512, 1]⟩

abbrev nBuf : Space → Nat
  | .hbm => 34
  | .vmem => 0
  | .smem => 0
  | _ => 0

abbrev bufTy : (tb : Table) → Fin (tcTables nBuf tb) → BufTy
  | .hbm, ⟨0, _⟩ => ⟨S32x512x512x4, .f32⟩
  | .hbm, ⟨1, _⟩ => ⟨S1x8x8x4, .f32⟩
  | .hbm, ⟨2, _⟩ => ⟨S1x8x8x4, .f32⟩
  | .hbm, ⟨3, _⟩ => ⟨S_, .f32⟩
  | .hbm, ⟨4, _⟩ => ⟨S1x8x8x4, .f32⟩
  | .hbm, ⟨5, _⟩ => ⟨S1x8x8x4, .f32⟩
  | .hbm, ⟨6, _⟩ => ⟨S1x8x8x4, .f32⟩
  | .hbm, ⟨7, _⟩ => ⟨S1x8x8x4, .f32⟩
  | .hbm, ⟨8, _⟩ => ⟨S_, .f32⟩
  | .hbm, ⟨9, _⟩ => ⟨S1x8x8x4, .f32⟩
  | .hbm, ⟨10, _⟩ => ⟨S1x8x8x4, .f32⟩
  | .hbm, ⟨11, _⟩ => ⟨S_, .f32⟩
  | .hbm, ⟨12, _⟩ => ⟨S1x8x8x4, .f32⟩
  | .hbm, ⟨13, _⟩ => ⟨S1x8x8x4, .f32⟩
  | .hbm, ⟨14, _⟩ => ⟨S1x8x8x4, .f32⟩
  | .hbm, ⟨15, _⟩ => ⟨S_, .f32⟩
  | .hbm, ⟨16, _⟩ => ⟨S1x8x8x4, .f32⟩
  | .hbm, ⟨17, _⟩ => ⟨S1x8x8x4, .f32⟩
  | .hbm, ⟨18, _⟩ => ⟨S1x8x8x4, .f32⟩
  | .hbm, ⟨19, _⟩ => ⟨S1x8x8x4, .f32⟩
  | .hbm, ⟨20, _⟩ => ⟨S_, .f32⟩
  | .hbm, ⟨21, _⟩ => ⟨S1x8x8x4, .f32⟩
  | .hbm, ⟨22, _⟩ => ⟨S1x8x8x4, .f32⟩
  | .hbm, ⟨23, _⟩ => ⟨S_, .f32⟩
  | .hbm, ⟨24, _⟩ => ⟨S1x8x8x4, .f32⟩
  | .hbm, ⟨25, _⟩ => ⟨S1x8x8x4, .f32⟩
  | .hbm, ⟨26, _⟩ => ⟨S1x1x1x8x1x8x1x4, .f32⟩
  | .hbm, ⟨27, _⟩ => ⟨S1x1x64x8x64x8x1x4, .f32⟩
  | .hbm, ⟨28, _⟩ => ⟨S1x512x512x4, .f32⟩
  | .hbm, ⟨29, _⟩ => ⟨S32x512x512x4, .f32⟩
  | .hbm, ⟨30, _⟩ => ⟨S32x512x512x4, .f32⟩
  | .hbm, ⟨31, _⟩ => ⟨S_, .f32⟩
  | .hbm, ⟨32, _⟩ => ⟨S32x512x512, .f32⟩
  | .hbm, ⟨33, _⟩ => ⟨S32x512x512x1, .f32⟩
  | _, _ => ⟨S32x512x512x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  bcast_S_S1x8x8x4 : S_.BroadcastsInDim S1x8x8x4 (![] : Fin 0 → Fin S1x8x8x4.rank)
  shapeCasts_S1x8x8x4_S1x1x1x8x1x8x1x4 : S1x8x8x4.ShapeCasts S1x1x1x8x1x8x1x4
  bcast_S1x1x1x8x1x8x1x4_S1x1x64x8x64x8x1x4_0_1_2_3_4_5_6_7 : S1x1x1x8x1x8x1x4.BroadcastsInDim S1x1x64x8x64x8x1x4 (![0, 1, 2, 3, 4, 5, 6, 7] : Fin 8 → Fin S1x1x64x8x64x8x1x4.rank)
  shapeCasts_S1x1x64x8x64x8x1x4_S1x512x512x4 : S1x1x64x8x64x8x1x4.ShapeCasts S1x512x512x4
  bcast_S1x512x512x4_S32x512x512x4_0_1_2_3 : S1x512x512x4.BroadcastsInDim S32x512x512x4 (![0, 1, 2, 3] : Fin 4 → Fin S32x512x512x4.rank)
  reducesTo_S32x512x512x4_S32x512x512_d3 : S32x512x512x4.ReducesTo [3] S32x512x512
  h_S_ : 0 < S_.numel
  bcast_S32x512x512_S32x512x512x1_0_1_2 : S32x512x512.BroadcastsInDim S32x512x512x1 (![0, 1, 2] : Fin 3 → Fin S32x512x512x1.rank)

variable [Facts₀]

class Facts : Prop extends Facts₀ where

variable [Facts]
-- ==== Proof.Spec.lean ====
/-
  The function both programs compute, stated once over plain index types.

  An image batch x of shape [32, 512, 512, 4] is weighted by a mask M of shape [1, 8, 8, 4] that repeats with
  period 8 along the two image axes, and the four channels of every pixel are summed:

      out (b, h, w, 0) = z + sum over k < 4 of x (b, h, w, k) * M (0, h mod 8, w mod 8, k)

  where z is the value the sum starts from (both programs start from the same word). One side adds the four
  products in channel order into a running value; the other takes the sum over the channel axis at once. On the
  extended reals addition is commutative and associative, so the two agree with no finiteness assumption.
-/
import Idealize.ShloMosaic.PureOps.Ideal
import Idealize.ShloMosaic.Lib.ValueIdx

noncomputable section

namespace Cert.MaskedSum

open Idealize.ShloMosaic Idealize.ShloMosaic.ValueIdx

/-- The image batch's shape, the mask's, the running sum's and the result's. -/
abbrev SX : Shape := ⟨4, ![32, 512, 512, 4]⟩
abbrev SM : Shape := ⟨4, ![1, 8, 8, 4]⟩
abbrev SR : Shape := ⟨3, ![32, 512, 512]⟩
abbrev SO : Shape := ⟨4, ![32, 512, 512, 1]⟩

/-- A pixel coordinate's position inside the 8-periodic mask. -/
def tile (h : Fin 512) : Fin 8 := ⟨h.val % 8, Nat.mod_lt _ (by decide)⟩

theorem tile_val (h : Fin 512) : (tile h).val = h.val % 8 := rfl

/-- Channel k's contribution at pixel (b, h, w): the image entry times the mask entry over it. -/
def term (x : SX.Idx → EReal) (M : SM.Idx → EReal) (b : Fin 32) (h w : Fin 512) (k : Fin 4) : EReal :=
  x (ix4 b h w k) * M (ix4 (0 : Fin 1) (tile h) (tile w) k)

/-- The masked channel sum at a pixel, started from z. -/
def pixel (z : EReal) (x : SX.Idx → EReal) (M : SM.Idx → EReal) (b : Fin 32) (h w : Fin 512) : EReal :=
  z + ∑ k : Fin 4, term x M b h w k

/-- The masked channel sum as an array over (b, h, w). -/
def R (z : EReal) (x : SX.Idx → EReal) (M : SM.Idx → EReal) : SR.Idx → EReal :=
  fun i => pixel z x M (i 0) (i 1) (i 2)

/-- The result: the same with a trailing unit axis. -/
def G (z : EReal) (x : SX.Idx → EReal) (M : SM.Idx → EReal) : SO.Idx → EReal :=
  fun i => pixel z x M (i 0) (i 1) (i 2)

theorem R_ix3 (z : EReal) (x : SX.Idx → EReal) (M : SM.Idx → EReal) (b : Fin 32) (h w : Fin 512) :
    R z x M (ix3 b h w) = pixel z x M b h w := rfl

theorem G_ix4 (z : EReal) (x : SX.Idx → EReal) (M : SM.Idx → EReal) (b : Fin 32) (h w : Fin 512) (u : Fin 1) :
    G z x M (ix4 b h w u) = pixel z x M b h w := rfl

/-- The sum over the four channels written as a sum over the first four naturals, the form a running
    accumulation over consecutive steps produces: the addend at step s is channel s's term (and anything past
    the fourth step, which is never reached). -/
theorem pixel_eq_range (z : EReal) (x : SX.Idx → EReal) (M : SM.Idx → EReal) (b : Fin 32) (h w : Fin 512)
    (f : Nat → EReal) (hf : ∀ k : Fin 4, f k.val = term x M b h w k) :
    z + ∑ s ∈ Finset.range 4, f s = pixel z x M b h w := by
  unfold pixel
  rw [Finset.sum_range]
  exact congrArg (z + ·) (Finset.sum_congr rfl fun k _ => hf k)

end Cert.MaskedSum

end
-- ==== Proof.Pieces.lean ====
/-
  What the kernel body leaves in the output's staging buffer, in each of its two cases.

  At a grid point whose channel coordinate is 0 the body first stores the zero block, reads it back, and stores
  the zero block plus the product of the image block and the mask block; at every other point it reads what the
  point before left and stores that plus the product. Both are one covering store of the buffer, so what the
  buffer holds afterwards is that store's value, a function of the blocks the body loaded.
-/
import proofs.«144533_j22316650070837_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A point that continues a run of channels: over a buffer holding `acc`, the body leaves the accumulation step
    of `acc` with the image block `xb` and the mask block `mb`. -/
theorem out_B (c : Dev nD) (i : grid0.Coords) (a2 : Memref sig .tc .vmem S4x1x512x512 .f32) (h2 : a2.IsWhole)
    (a3 : Memref sig .tc .vmem S1x512x512 .f32) (h3 : a3.IsWhole) (a4 : Memref sig .tc .vmem S4x512x512 .f32) (h4 : a4.IsWhole)
    (hc : ¬cond0_0 i) (xb : Vec F S4x1x512x512 .f32) (mb : Vec F S1x512x512 .f32) (acc : Vec F S4x512x512 .f32) :
    out0_B_2 c i a2 h2 a3 h3 a4 h4 hc xb mb acc = k0_pay2 acc xb mb := by
  unfold out0_B_2
  rw [View.read_writes_eq_canon _ _ _ (cover0_B_2 c i a2 h2 a3 h3 a4 h4 hc xb mb acc)]
  unfold kernelRun0_B
  dsimp only
  rw [View.canon_unit_zero hz3]
  simp only [View.readAt_eq_ld, h2.read_unread, h3.read_unread, h4.read_unread, View.ld_unit_zero (S := S4x512x512) hz3,
    View.ld_unit_zero (S := S4x1x512x512) hz4, View.ld_unit_zero (S := S1x512x512) hz3]

/-- A point that starts a run of channels: the body leaves the accumulation step of the zero block. -/
theorem out_A (c : Dev nD) (i : grid0.Coords) (a2 : Memref sig .tc .vmem S4x1x512x512 .f32) (h2 : a2.IsWhole)
    (a3 : Memref sig .tc .vmem S1x512x512 .f32) (h3 : a3.IsWhole) (a4 : Memref sig .tc .vmem S4x512x512 .f32) (h4 : a4.IsWhole)
    (hc : cond0_0 i) (xb : Vec F S4x1x512x512 .f32) (mb : Vec F S1x512x512 .f32) :
    out0_A_2 c i a2 h2 a3 h3 a4 h4 hc xb mb = k0_pay2 (k0_pay1 (F := F)) xb mb := by
  unfold out0_A_2
  rw [View.read_writes_eq_canon _ _ _ (cover0_A_2 c i a2 h2 a3 h3 a4 h4 hc xb mb)]
  unfold kernelRun0_A
  dsimp only
  sl_unfold_words
  rw [View.canon_cons_unit_zero (S := S4x512x512) hz3, View.readCov_unit_zero (S := S4x512x512) _ hz3]
  simp only [View.readAt_eq_ld, h2.read_unread, h3.read_unread, View.ld_unit_zero (S := S4x512x512) hz3,
    View.ld_unit_zero (S := S4x1x512x512) hz4, View.ld_unit_zero (S := S1x512x512) hz3]

end Cert.KernelIdeal.Pieces

end
-- ==== Proof.Payload.lean ====
/-
  The accumulation step of the kernel body, read at an index of the extended reals.

  The body's one arithmetic value is  acc + xb * mb  where `acc` is the [4, 512, 512] block of running sums,
  `xb` the [4, 1, 512, 512] block of one channel of four images (its unit axis dropped) and `mb` the
  [1, 512, 512] block of that channel's mask (repeated over the four images). At (p, h, w) that is
  acc (p, h, w) + xb (p, 0, h, w) * mb (0, h, w); the value the first step starts from is the zero word.
-/
import proofs.«144533_j22316650070837_1_alg».proof.Proof.Gen.KernelIdeal.Skeleton
import Idealize.ShloMosaic.Lib.Pipeline.Value
import Idealize.ShloMosaic.Lib.ValueIdx

noncomputable section

namespace Cert.KernelIdeal.Payload

open Idealize.ShloMosaic Idealize.ShloMosaic.ValueIdx
open Cert.KernelIdeal Cert.KernelIdeal.Gen

/-- The value a run of channels starts from: the zero word at every index. -/
theorem pay1_apply (j : S4x512x512.Idx) : k0_pay1 (F := Ideal) j = Ideal.ofBits .f32 0x00000000#32 := rfl

/-- Dropping the unit channel axis of an image block: (p, h, w) reads (p, 0, h, w), the same row-major position. -/
theorem dropChannel_apply (xb : FVec Ideal S4x1x512x512 .f32) (p : Fin 4) (h w : Fin 512) :
    shapeCast S4x512x512 xb shapeCasts_S4x1x512x512_S4x512x512 (ix3 p h w) = xb (ix4 p (0 : Fin 1) h w) :=
  shapeCast_apply xb _ (ix3 p h w) (ix4 p (0 : Fin 1) h w) (by
    rw [Shape.rowMajor_val_four, Shape.rowMajor_val_three]
    show ((p.val * 1 + 0) * 512 + h.val) * 512 + w.val = (p.val * 512 + h.val) * 512 + w.val
    omega)

/-- Repeating the mask block over the four images: (p, h, w) reads (0, h, w). -/
theorem repeatMask_apply (mb : FVec Ideal S1x512x512 .f32) (p : Fin 4) (h w : Fin 512) :
    broadcastTo S4x512x512 mb broadcasts_S1x512x512_S4x512x512 (ix3 p h w) = mb (ix3 (0 : Fin 1) h w) :=
  broadcastTo_apply mb _ (ix3 p h w) (ix3 (0 : Fin 1) h w) (fun a => match a with
    | ⟨0, _⟩ => by show 0 = if (1 : Nat) = 1 then 0 else p.val; rw [if_pos rfl]
    | ⟨1, _⟩ => by show h.val = if (512 : Nat) = 1 then 0 else h.val; rw [if_neg (by decide)]
    | ⟨2, _⟩ => by show w.val = if (512 : Nat) = 1 then 0 else w.val; rw [if_neg (by decide)])

/-- The accumulation step at (p, h, w). -/
theorem pay2_apply (acc : Vec Ideal S4x512x512 .f32) (xb : Vec Ideal S4x1x512x512 .f32) (mb : Vec Ideal S1x512x512 .f32)
    (p : Fin 4) (h w : Fin 512) :
    k0_pay2 acc xb mb (ix3 p h w) = acc (ix3 p h w) + xb (ix4 p (0 : Fin 1) h w) * mb (ix3 (0 : Fin 1) h w) := by
  unfold k0_pay2
  show (shapeCast S4x512x512 acc shapeCasts_S4x512x512_S4x512x512 (ix3 p h w) : EReal)
      + shapeCast S4x512x512 xb shapeCasts_S4x1x512x512_S4x512x512 (ix3 p h w)
        * broadcastTo S4x512x512 (shapeCast S1x512x512 (shapeCast S512x512 mb shapeCasts_S1x512x512_S512x512) shapeCasts_S512x512_S1x512x512)
            broadcasts_S1x512x512_S4x512x512 (ix3 p h w) = _
  rw [shapeCast_self, shapeCast_shapeCast, dropChannel_apply, repeatMask_apply]

end Cert.KernelIdeal.Payload

end
-- ==== Proof.Blocks.lean ====
/-
  Which entries of its array a window's block holds.

  The grid has 8 x 4 points, point t being (image group t / 4, channel t % 4). At point t the image window's
  block holds channel t % 4 of images 4 (t / 4) … 4 (t / 4) + 3 of the channel-major image array, the mask
  window's block holds channel t % 4 of the channel-major mask, and the output window's block is rows
  4 (t / 4) … 4 (t / 4) + 3 of the result. The three index maps are decided once over the 32 points.
-/
import proofs.«144533_j22316650070837_1_alg».proof.Proof.Gen.KernelIdeal.Frame
import Idealize.ShloMosaic.Lib.Pipeline.Value
import Idealize.ShloMosaic.Lib.ValueIdx

noncomputable section

namespace Cert.KernelIdeal.Blocks

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The image window's block index at point t: (t / 4, t % 4, 0, 0). -/
theorem index_x : ∀ t : Fin cfg0.N, win0_0.index t 0 = t.val / 4 ∧ win0_0.index t 1 = t.val % 4
    ∧ win0_0.index t 2 = 0 ∧ win0_0.index t 3 = 0 :=
  (by decide +kernel : ∀ t : Fin grid0.N, win0_0.index t 0 = t.val / 4 ∧ win0_0.index t 1 = t.val % 4
    ∧ win0_0.index t 2 = 0 ∧ win0_0.index t 3 = 0)

/-- The mask window's block index at point t: (t % 4, 0, 0). -/
theorem index_mask : ∀ t : Fin cfg0.N, win0_1.index t 0 = t.val % 4 ∧ win0_1.index t 1 = 0 ∧ win0_1.index t 2 = 0 :=
  (by decide +kernel : ∀ t : Fin grid0.N, win0_1.index t 0 = t.val % 4 ∧ win0_1.index t 1 = 0 ∧ win0_1.index t 2 = 0)

/-- The output window's block index at point t: (t / 4, 0, 0). -/
theorem index_out : ∀ t : Fin cfg0.N, win0_2.index t 0 = t.val / 4 ∧ win0_2.index t 1 = 0 ∧ win0_2.index t 2 = 0 :=
  (by decide +kernel : ∀ t : Fin grid0.N, win0_2.index t 0 = t.val / 4 ∧ win0_2.index t 1 = 0 ∧ win0_2.index t 2 = 0)

theorem lt_N (t : Fin cfg0.N) : t.val < 32 := lt_of_lt_of_eq t.isLt (show cfg0.N = 32 from N_0)

/-- Image p of the group at point t. -/
def img (t : Fin cfg0.N) (p : Fin 4) : Fin 32 := ⟨4 * (t.val / 4) + p.val, by have := lt_N t; have := p.isLt; omega⟩
/-- The channel at point t. -/
def chan (t : Fin cfg0.N) : Fin 4 := ⟨t.val % 4, Nat.mod_lt _ (by decide)⟩

/-- The image block at point t, at (p, 0, h, w), is the channel-major image array at (image p of the group, the
    point's channel, h, w). -/
theorem xblk_apply (c : Dev nD) (t : Fin cfg0.N) (p : Fin 4) (h w : Fin 512) :
    (iblk m c 0 t : Vec F S4x1x512x512 .f32) (ix4 p (0 : Fin 1) h w)
      = (V m c main_v22 : S32x4x512x512.Idx → F .f32) (ix4 (img t p) (chan t) h w) := by
  have hi := index_x t
  unfold iblk
  rw [View.read_apply, cast_eq]
  show V m c main_v22 _ = V m c main_v22 _
  congr 1
  funext a
  apply Fin.ext
  match a with
  | ⟨0, _⟩ => show win0_0.index t 0 * 4 + 1 * p.val = 4 * (t.val / 4) + p.val; rw [hi.1]; omega
  | ⟨1, _⟩ => show win0_0.index t 1 * 1 + 1 * 0 = t.val % 4; rw [hi.2.1]; omega
  | ⟨2, _⟩ => show win0_0.index t 2 * 512 + 1 * h.val = h.val; rw [hi.2.2.1]; omega
  | ⟨3, _⟩ => show win0_0.index t 3 * 512 + 1 * w.val = w.val; rw [hi.2.2.2]; omega

/-- The mask block at point t, at (0, h, w), is the channel-major mask at (the point's channel, h, w). -/
theorem mblk_apply (c : Dev nD) (t : Fin cfg0.N) (h w : Fin 512) :
    (iblk m c 1 t : Vec F S1x512x512 .f32) (ix3 (0 : Fin 1) h w)
      = (V m c main_v21 : S4x512x512.Idx → F .f32) (ix3 (chan t) h w) := by
  have hi := index_mask t
  unfold iblk
  rw [View.read_apply, cast_eq]
  show V m c main_v21 _ = V m c main_v21 _
  congr 1
  funext a
  apply Fin.ext
  match a with
  | ⟨0, _⟩ => show win0_1.index t 0 * 1 + 1 * 0 = t.val % 4; rw [hi.1]; omega
  | ⟨1, _⟩ => show win0_1.index t 1 * 512 + 1 * h.val = h.val; rw [hi.2.1]; omega
  | ⟨2, _⟩ => show win0_1.index t 2 * 512 + 1 * w.val = w.val; rw [hi.2.2]; omega

end Cert.KernelIdeal.Blocks

end
-- ==== Proof.Accum.lean ====
/-
  What the output's staging buffer holds after each grid point, at an index of the extended reals.

  Points 4 q, 4 q + 1, 4 q + 2, 4 q + 3 are the four channels of image group q. The first of them starts from the
  zero word, each adds its channel's product to what the point before left, so after point 4 q + j the buffer
  holds at (p, h, w) the zero word plus the products of channels 0 … j: a sum over the first j + 1 naturals. At
  the last of the four (the point that writes the block back) this is the whole channel sum of the pixel.
-/
import proofs.«144533_j22316650070837_1_alg».proof.Proof.Spec
import proofs.«144533_j22316650070837_1_alg».proof.Proof.Pieces
import proofs.«144533_j22316650070837_1_alg».proof.Proof.Payload
import proofs.«144533_j22316650070837_1_alg».proof.Proof.Blocks

noncomputable section

namespace Cert.KernelIdeal.Accum

open Idealize.ShloMosaic Idealize.ShloMosaic.TcCoe Idealize.ShloMosaic.ValueIdx Idealize.SL.Sem
open Cert.KernelIdeal Cert.KernelIdeal.Gen Cert.KernelIdeal.Pieces Cert.KernelIdeal.Payload Cert.KernelIdeal.Blocks
open Cert.MaskedSum

variable (m : (ℓ : Loc nD τ sig) → Buf (Elt Ideal) ℓ)

/-- A position inside the output block: (image of the group, row, column). -/
abbrev Pos : Type := Fin 4 × Fin 512 × Fin 512

/-- The value every run of four channels starts from. -/
abbrev zero : EReal := Ideal.ofBits .f32 0x00000000#32

/-- An image block's entry at a position times a mask block's. -/
def prod (xb : S4x1x512x512.Idx → EReal) (mb : S1x512x512.Idx → EReal) (q : Pos) : EReal :=
  xb (ix4 q.1 (0 : Fin 1) q.2.1 q.2.2) * mb (ix3 (0 : Fin 1) q.2.1 q.2.2)

/-- Point n's addend at a position: its image block's entry times its mask block's (0 past the grid, never used). -/
def addend (c : Dev nD) (n : Nat) (q : Pos) : EReal :=
  if hn : n < cfg0.N then prod (iblk m c 0 ⟨n, hn⟩) (iblk m c 1 ⟨n, hn⟩) q else 0

/-- What the buffer holds after point n, by position. -/
def held (c : Dev nD) (n : Nat) (hn : n < cfg0.N) (q : Pos) : EReal :=
  (outsAt0 m c n hn : Vec Ideal S4x512x512 .f32) (ix3 q.1 q.2.1 q.2.2)

/-- A point that starts a run leaves the zero word plus its addend. -/
theorem held_start (c : Dev nD) (n : Nat) (hn : n < cfg0.N) (h0 : n % 4 = 0) :
    held m c n hn = fun q => zero + addend m c n q := by
  funext q
  unfold held addend
  rw [outsAt0_A m c ⟨n, hn⟩ h0, out_A, pay2_apply, dif_pos hn]
  rfl

/-- Every other point adds its addend to what the point before left. -/
theorem held_step (c : Dev nD) (n : Nat) (hn : n + 1 < cfg0.N) (h0 : ¬(n + 1) % 4 = 0) :
    held m c (n + 1) hn = fun q => held m c n (Nat.lt_of_succ_lt hn) q + addend m c (n + 1) q := by
  funext q
  unfold held addend
  rw [outsAt0_B m c ⟨n + 1, hn⟩ h0, out_B, pay2_apply, dif_pos hn]
  rfl

/-- So at the last channel of image group t / 4 the buffer holds, by position, the zero word plus the four
    channels' addends. -/
theorem held_last (c : Dev nD) (t : Fin cfg0.N) (h3 : t.val % 4 = 3) (q : Pos) :
    held m c t.val t.isLt q = zero + ∑ s ∈ Finset.range 4, addend m c (4 * (t.val / 4) + s) q := by
  have h' : 4 * (t.val / 4) + t.val % 4 < cfg0.N := by rw [Nat.div_add_mod]; exact t.isLt
  have e := Pipeline.eq_accAt_of_mod (held m c) 4 (fun n _ q => zero + addend m c n q)
    (fun n _ acc q => acc q + addend m c n q) (held_start m c) (held_step m c) (by decide) t.val t.isLt h'
  have e2 := Pipeline.accAt_add_apply (N := cfg0.N) (fun n _ q => zero + addend m c n q)
    (fun n _ acc q => acc q + addend m c n q) (fun _ => zero) (addend m c) (4 * (t.val / 4)) 3
    (fun _ _ => rfl) (fun _ _ _ _ _ _ => rfl) (t.val % 4) (by omega) h' q
  refine (congrFun e q).trans (e2.trans ?_)
  rw [h3]

end Cert.KernelIdeal.Accum

end
-- ==== Proof.Final.lean ====
/-
  The output array after the region: every pixel's masked channel sum.

  Given what the two arrays the region reads hold (the channel-major image array is the image batch with the
  channel axis moved, the channel-major mask is the 8-periodic mask), point t's addend of channel s at
  (p, h, w) is channel s's term of pixel (4 (t / 4) + p, h, w). So the block written back at the last channel of
  image group t / 4 is rows 4 (t / 4) … 4 (t / 4) + 3 of the array R of all pixels' sums; the eight blocks written
  back cover the array (row b is in group b / 4), so the array ends holding R.
-/
import proofs.«144533_j22316650070837_1_alg».proof.Proof.Accum

noncomputable section

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks Cert.KernelIdeal.Accum
open Cert.MaskedSum

variable (m : (ℓ : Loc nD τ sig) → Buf (Elt Ideal) ℓ)
variable (c : Dev nD) (X : SX.Idx → EReal) (Mk : SM.Idx → EReal)

/-- What the region finds in the two arrays it reads: the image batch with its channel axis moved to second place,
    and the mask repeated with period 8 with its channel axis moved to the front. -/
structure Reads : Prop where
  image : ∀ (b : Fin 32) (k : Fin 4) (h w : Fin 512),
    (V m c main_v22 : S32x4x512x512.Idx → EReal) (ix4 b k h w) = X (ix4 b h w k)
  mask : ∀ (k : Fin 4) (h w : Fin 512),
    (V m c main_v21 : S4x512x512.Idx → EReal) (ix3 k h w) = Mk (ix4 (0 : Fin 1) (tile h) (tile w) k)

variable {m c X Mk}

/-- The product of two blocks' entries at a position, spelled out. -/
theorem prod_apply (xb : S4x1x512x512.Idx → EReal) (mb : S1x512x512.Idx → EReal) (p : Fin 4) (h w : Fin 512) :
    prod xb mb (p, h, w) = xb (ix4 p (0 : Fin 1) h w) * mb (ix3 (0 : Fin 1) h w) := rfl

/-- Channel s's addend of image group t / 4 at (p, h, w) is channel s's term of that pixel. -/
theorem addend_eq (hr : Reads m c X Mk) (t : Fin cfg0.N) (s : Fin 4) (p : Fin 4) (h w : Fin 512) :
    addend m c (4 * (t.val / 4) + s.val) (p, h, w) = term X Mk (img t p) h w s := by
  have hN : cfg0.N = 32 := N_0
  have ht := lt_N t
  have hs := s.isLt
  have hn : 4 * (t.val / 4) + s.val < cfg0.N := lt_of_lt_of_eq (by omega : 4 * (t.val / 4) + s.val < 32) hN.symm
  have e1 : img ⟨4 * (t.val / 4) + s.val, hn⟩ p = img t p := Fin.ext (by show 4 * ((4 * (t.val / 4) + s.val) / 4) + p.val = 4 * (t.val / 4) + p.val; omega)
  have e2 : chan ⟨4 * (t.val / 4) + s.val, hn⟩ = s := Fin.ext (by show (4 * (t.val / 4) + s.val) % 4 = s.val; omega)
  unfold addend
  rw [dif_pos hn, prod_apply, xblk_apply, mblk_apply, e1, e2, hr.image, hr.mask]
  rfl

/-- At the last channel of its image group the buffer holds each pixel's masked channel sum. -/
theorem held_pixel (hr : Reads m c X Mk) (t : Fin cfg0.N) (h3 : t.val % 4 = 3) (p : Fin 4) (h w : Fin 512) :
    (outsAt0 m c t.val t.isLt : Vec Ideal S4x512x512 .f32) (ix3 p h w) = pixel zero X Mk (img t p) h w :=
  (held_last m c t h3 (p, h, w)).trans
    (pixel_eq_range zero X Mk (img t p) h w (fun s => addend m c (4 * (t.val / 4) + s) (p, h, w))
      (fun k => addend_eq hr t k p h w))

/-- All pixels' sums, as contents of the region's output array. -/
abbrev sums (c : Dev nD) (X : SX.Idx → EReal) (Mk : SM.Idx → EReal) : Buf (Elt Ideal) ((c : Thread nD τ).loc main_v23) :=
  R zero X Mk

/-- The block written back at a flushing point is that block of the array of sums. -/
theorem flushed_eq (hr : Reads m c X Mk) (t : Fin cfg0.N) (hf : (cfg0.win 2).flush t = true) :
    (dats m 0 c).flushed 2 t = ((cfg0.win 2).blk t).view.read (Elt Ideal) (sums c X Mk) := by
  have h3 : t.val % 4 = 3 := (flush0_2 t).mp hf
  have hi := index_out t
  funext y
  have hp : (y 0).val < 4 := (y 0).isLt
  have hh : (y 1).val < 512 := (y 1).isLt
  have hw : (y 2).val < 512 := (y 2).isLt
  have eL : (cfg0.win 2).xinj (grid0.coords t) y
      = ix3 (⟨(y 0).val, hp⟩ : Fin 4) (⟨(y 1).val, hh⟩ : Fin 512) (⟨(y 2).val, hw⟩ : Fin 512) :=
    funext fun a => match a with | ⟨0, _⟩ => rfl | ⟨1, _⟩ => rfl | ⟨2, _⟩ => rfl
  have eR : ((cfg0.win 2).blk t).view.emb y
      = ix3 (img t ⟨(y 0).val, hp⟩) (⟨(y 1).val, hh⟩ : Fin 512) (⟨(y 2).val, hw⟩ : Fin 512) :=
    funext fun a => Fin.ext (match a with
      | ⟨0, _⟩ => by show win0_2.index t 0 * 4 + 1 * (y 0).val = 4 * (t.val / 4) + (y 0).val; rw [hi.1]; omega
      | ⟨1, _⟩ => by show win0_2.index t 1 * 512 + 1 * (y 1).val = (y 1).val; rw [hi.2.1]; omega
      | ⟨2, _⟩ => by show win0_2.index t 2 * 512 + 1 * (y 2).val = (y 2).val; rw [hi.2.2]; omega)
  show (dats m 0 c).after 2 t ((cfg0.win 2).xinj (grid0.coords t) y) = _
  rw [after0_2, View.read_apply, cast_eq, eL, eR]
  exact held_pixel hr t h3 _ _ _

/-- The point that writes back row b's block: the last channel of image group b / 4. -/
def lastOf (b : Fin 32) : Fin cfg0.N :=
  ⟨4 * (b.val / 4) + 3, lt_of_lt_of_eq (by have := b.isLt; omega : 4 * (b.val / 4) + 3 < 32) (show cfg0.N = 32 from N_0).symm⟩

/-- So the region's output array ends holding every pixel's sum: the eight blocks written back cover it. -/
theorem final (hr : Reads m c X Mk) : (dats m 0 c).arrAt 2 cfg0.N = sums c X Mk :=
  (dats m 0 c).arrAt_eq_of_cover 2 (sums c X Mk) (flushed_eq hr) fun i => by
    have h0 : (i 0 : Nat) < 32 := (i 0).isLt
    have h1 : (i 1 : Nat) < 512 := (i 1).isLt
    have h2 : (i 2 : Nat) < 512 := (i 2).isLt
    have hi := index_out (lastOf ⟨(i 0 : Nat), h0⟩)
    refine ⟨lastOf ⟨(i 0 : Nat), h0⟩, (flush0_2 _).mpr (by show (4 * ((i 0 : Nat) / 4) + 3) % 4 = 3; omega), ?_⟩
    show i ∈ ((View.whole main_v23).slice (win0_2.rect (lastOf ⟨(i 0 : Nat), h0⟩))).set
    rw [View.set_slice_whole, Rect.mem_set_unit]
    intro a
    match a with
    | ⟨0, _⟩ =>
      show win0_2.index (lastOf ⟨(i 0 : Nat), h0⟩) 0 * 4 ≤ (i 0 : Nat) ∧ (i 0 : Nat) < win0_2.index (lastOf ⟨(i 0 : Nat), h0⟩) 0 * 4 + 4
      rw [hi.1]; show (4 * ((i 0 : Nat) / 4) + 3) / 4 * 4 ≤ (i 0 : Nat) ∧ (i 0 : Nat) < (4 * ((i 0 : Nat) / 4) + 3) / 4 * 4 + 4; omega
    | ⟨1, _⟩ =>
      show win0_2.index (lastOf ⟨(i 0 : Nat), h0⟩) 1 * 512 ≤ (i 1 : Nat) ∧ (i 1 : Nat) < win0_2.index (lastOf ⟨(i 0 : Nat), h0⟩) 1 * 512 + 512
      rw [hi.2.1]; omega
    | ⟨2, _⟩ =>
      show win0_2.index (lastOf ⟨(i 0 : Nat), h0⟩) 2 * 512 ≤ (i 2 : Nat) ∧ (i 2 : Nat) < win0_2.index (lastOf ⟨(i 0 : Nat), h0⟩) 2 * 512 + 512
      rw [hi.2.2]; omega

end Cert.KernelIdeal.Final

end
-- ==== Proof.KPrefix.lean ====
/-
  The two arrays the kernel's region reads, at an index.

  Before the region the host transposes the image batch x of shape [32, 512, 512, 4] to [32, 4, 512, 512], and it
  tiles the mask M of shape [1, 8, 8, 4] over the image: M is viewed as [8, 8, 4], then as [1, 8, 1, 8, 1, 4],
  repeated to [64, 8, 64, 8, 1, 4], viewed as [512, 512, 4] and transposed to [4, 512, 512]. Read at an index,

      x_t (b, k, h, w) = x (b, h, w, k)          mask_t (k, h, w) = M (0, h mod 8, w mod 8, k)

  since the row-major position of (h, w, k) in [512, 512, 4] is that of (h / 8, h mod 8, w / 8, w mod 8, 0, k) in
  [64, 8, 64, 8, 1, 4], a repeated axis reads its one entry, and the unit axes do not move a position.
-/
import proofs.«144533_j22316650070837_1_alg».proof.Proof.Spec
import proofs.«144533_j22316650070837_1_alg».proof.Proof.Gen.KernelIdeal.Frame
import proofs.«144533_j22316650070837_1_alg».proof.Proof.Gen.ReferenceIdeal.Read
import Idealize.ShloMosaic.Lib.Pipeline.Value
import Idealize.ShloMosaic.Lib.ValueIdx
import Idealize.ShloMosaic.Lib.ValueIdxRank6
import Idealize.ShloMosaic.Lib.StableHlo.Run

noncomputable section

namespace Cert.KernelIdeal.Prefix

open Idealize.ShloMosaic Idealize.ShloMosaic.TcCoe Idealize.ShloMosaic.ValueIdx Idealize.SL.Sem
open Cert.KernelIdeal Cert.KernelIdeal.Gen Cert.MaskedSum

/-! ## The layout steps, each over any operand -/

section Steps
variable {α : Type}

/-- The image transposed: channel second. -/
theorem transpose_x_apply (y : S32x512x512x4.Idx → α) (b : Fin 32) (k : Fin 4) (h w : Fin 512) :
    transpose S32x4x512x512 [0, 3, 1, 2] y transposes_S32x512x512x4_S32x4x512x512_0_3_1_2 (ix4 b k h w) = y (ix4 b h w k) :=
  transpose_apply _ y _ (ix4 b k h w) (ix4 b h w k) (fun a => match a with
    | ⟨0, _⟩ => rfl
    | ⟨1, _⟩ => rfl
    | ⟨2, _⟩ => rfl
    | ⟨3, _⟩ => rfl)

/-- The tiled mask transposed: channel first. -/
theorem transpose_m_apply (y : S512x512x4.Idx → α) (k : Fin 4) (h w : Fin 512) :
    transpose S4x512x512 [2, 0, 1] y transposes_S512x512x4_S4x512x512_2_0_1 (ix3 k h w) = y (ix3 h w k) :=
  transpose_apply _ y _ (ix3 k h w) (ix3 h w k) (fun a => match a with
    | ⟨0, _⟩ => rfl
    | ⟨1, _⟩ => rfl
    | ⟨2, _⟩ => rfl)

/-- Pixel (h, w) of the tiled mask is entry (h mod 8, w mod 8) of tile (h / 8, w / 8). -/
theorem merge_apply (y : S64x8x64x8x1x4.Idx → α) (h w : Fin 512) (k : Fin 4) :
    shapeCast S512x512x4 y shapeCasts_S64x8x64x8x1x4_S512x512x4 (ix3 h w k)
      = y (ix6 (⟨h.val / 8, by omega⟩ : Fin 64) (tile h) (⟨w.val / 8, by omega⟩ : Fin 64) (tile w) (0 : Fin 1) k) := by
  refine shapeCast_apply y _ (ix3 h w k) _ ?_
  rw [Shape.rowMajor_val_six, Shape.rowMajor_val_three]
  show (((((h.val / 8) * 8 + h.val % 8) * 64 + w.val / 8) * 8 + w.val % 8) * 1 + 0) * 4 + k.val = (h.val * 512 + w.val) * 4 + k.val
  omega

/-- A repeated axis reads its one entry: tile (a, c) of the repeated mask is the mask. -/
theorem repeat_apply (y : S1x8x1x8x1x4.Idx → α) (a c : Fin 64) (p q : Fin 8) (u : Fin 1) (k : Fin 4) :
    broadcastInDim S64x8x64x8x1x4 ![0, 1, 2, 3, 4, 5] bcast_S1x8x1x8x1x4_S64x8x64x8x1x4_0_1_2_3_4_5 y (ix6 a p c q u k)
      = y (ix6 (0 : Fin 1) p (0 : Fin 1) q (0 : Fin 1) k) :=
  broadcastInDim_apply _ _ y (ix6 a p c q u k) (ix6 (0 : Fin 1) p (0 : Fin 1) q (0 : Fin 1) k) (fun d => match d with
    | ⟨0, _⟩ => by show 0 = if (1 : Nat) = 1 then 0 else a.val; rw [if_pos rfl]
    | ⟨1, _⟩ => by show p.val = if (8 : Nat) = 1 then 0 else p.val; rw [if_neg (by decide)]
    | ⟨2, _⟩ => by show 0 = if (1 : Nat) = 1 then 0 else c.val; rw [if_pos rfl]
    | ⟨3, _⟩ => by show q.val = if (8 : Nat) = 1 then 0 else q.val; rw [if_neg (by decide)]
    | ⟨4, _⟩ => by show 0 = if (1 : Nat) = 1 then 0 else u.val; rw [if_pos rfl]
    | ⟨5, _⟩ => by show k.val = if (4 : Nat) = 1 then 0 else k.val; rw [if_neg (by decide)])

/-- Unit axes put between the mask's axes do not move an entry. -/
theorem spread_apply (y : S8x8x4.Idx → α) (p q : Fin 8) (k : Fin 4) :
    shapeCast S1x8x1x8x1x4 y shapeCasts_S8x8x4_S1x8x1x8x1x4 (ix6 (0 : Fin 1) p (0 : Fin 1) q (0 : Fin 1) k) = y (ix3 p q k) := by
  refine shapeCast_apply y _ (ix6 (0 : Fin 1) p (0 : Fin 1) q (0 : Fin 1) k) _ ?_
  rw [Shape.rowMajor_val_six, Shape.rowMajor_val_three]
  show (p.val * 8 + q.val) * 4 + k.val = ((((0 * 8 + p.val) * 1 + 0) * 8 + q.val) * 1 + 0) * 4 + k.val
  omega

/-- Nor does dropping the mask's leading unit axis. -/
theorem drop_apply (y : S1x8x8x4.Idx → α) (p q : Fin 8) (k : Fin 4) :
    shapeCast S8x8x4 y shapeCasts_S1x8x8x4_S8x8x4 (ix3 p q k) = y (ix4 (0 : Fin 1) p q k) := by
  refine shapeCast_apply y _ (ix3 p q k) _ ?_
  rw [Shape.rowMajor_val_four, Shape.rowMajor_val_three]
  show ((0 * 8 + p.val) * 8 + q.val) * 4 + k.val = (p.val * 8 + q.val) * 4 + k.val
  omega

/-- The whole tiling of a mask y, read at a pixel. -/
theorem tiled_apply (y : S1x8x8x4.Idx → α) (k : Fin 4) (h w : Fin 512) :
    transpose S4x512x512 [2, 0, 1]
        (shapeCast S512x512x4
          (broadcastInDim S64x8x64x8x1x4 ![0, 1, 2, 3, 4, 5] bcast_S1x8x1x8x1x4_S64x8x64x8x1x4_0_1_2_3_4_5
            (shapeCast S1x8x1x8x1x4 (shapeCast S8x8x4 y shapeCasts_S1x8x8x4_S8x8x4) shapeCasts_S8x8x4_S1x8x1x8x1x4))
          shapeCasts_S64x8x64x8x1x4_S512x512x4)
        transposes_S512x512x4_S4x512x512_2_0_1 (ix3 k h w)
      = y (ix4 (0 : Fin 1) (tile h) (tile w) k) :=
  (transpose_m_apply _ k h w).trans <| (merge_apply _ h w k).trans <| (repeat_apply _ _ _ _ _ _ k).trans <|
    (spread_apply _ _ _ k).trans (drop_apply y _ _ k)

end Steps

/-! ## The two arrays as the region finds them -/

variable (m : (ℓ : Loc nD τ sig) → Buf (Elt Ideal) ℓ)

/-- The image as the region finds it is the launch's image transposed. -/
theorem xt_eq (c : Dev nD) :
    (V m c main_v22 : S32x4x512x512.Idx → EReal)
      = transpose S32x4x512x512 [0, 3, 1, 2] (m ((c : Thread nD τ).loc main_arg0)) transposes_S32x512x512x4_S32x4x512x512_0_3_1_2 := by
  show StableHlo.after (List.flatten [hostOps0]) (fun b => m (c, b)) (Proc.devRef .tc main_v22) = _
  simp only [List.flatten_cons, List.flatten_nil, List.append_nil]
  after_results

/-- The mask as the region finds it is the launch's mask, tiled over the image and transposed. -/
theorem maskt_eq (c : Dev nD) :
    (V m c main_v21 : S4x512x512.Idx → EReal)
      = transpose S4x512x512 [2, 0, 1]
          (shapeCast S512x512x4
            (broadcastInDim S64x8x64x8x1x4 ![0, 1, 2, 3, 4, 5] bcast_S1x8x1x8x1x4_S64x8x64x8x1x4_0_1_2_3_4_5
              (shapeCast S1x8x1x8x1x4
                (shapeCast S8x8x4
                  (Cert.ReferenceIdeal.Read.val_main_v16 (F := Ideal) (m ((c : Thread nD τ).loc main_arg1)) (m ((c : Thread nD τ).loc main_arg2)))
                  shapeCasts_S1x8x8x4_S8x8x4)
                shapeCasts_S8x8x4_S1x8x1x8x1x4))
            shapeCasts_S64x8x64x8x1x4_S512x512x4)
          transposes_S512x512x4_S4x512x512_2_0_1 := by
  show StableHlo.after (List.flatten [hostOps0]) (fun b => m (c, b)) (Proc.devRef .tc main_v21) = _
  simp only [List.flatten_cons, List.flatten_nil, List.append_nil]
  after_results
  rfl

theorem xt_apply (c : Dev nD) (b : Fin 32) (k : Fin 4) (h w : Fin 512) :
    (V m c main_v22 : S32x4x512x512.Idx → EReal) (ix4 b k h w)
      = (m ((c : Thread nD τ).loc main_arg0) : S32x512x512x4.Idx → EReal) (ix4 b h w k) := by
  rw [xt_eq m c]
  exact transpose_x_apply _ b k h w

theorem maskt_apply (c : Dev nD) (k : Fin 4) (h w : Fin 512) :
    (V m c main_v21 : S4x512x512.Idx → EReal) (ix3 k h w)
      = Cert.ReferenceIdeal.Read.val_main_v16 (F := Ideal) (m ((c : Thread nD τ).loc main_arg1)) (m ((c : Thread nD τ).loc main_arg2))
          (ix4 (0 : Fin 1) (tile h) (tile w) k) := by
  rw [maskt_eq m c]
  exact tiled_apply _ k h w

end Cert.KernelIdeal.Prefix

end
-- ==== Proof.KTail.lean ====
/-
  From the region's output array to the program's result.

  The region leaves the running sum out (b, h, w) in its output array. The one host line after it adds a trailing
  axis of extent one: result (b, h, w, 0) = out (b, h, w). Read at an index, that line turns the array R of the
  specification into its result G. The whole run then ends with G in the result buffer and with the three
  arguments as they were launched.
-/
import proofs.«144533_j22316650070837_1_alg».proof.Proof.Spec
import proofs.«144533_j22316650070837_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Tail

open Idealize.ShloMosaic Idealize.ShloMosaic.TcCoe Idealize.ShloMosaic.ValueIdx Idealize.SL.Sem
open Cert.KernelIdeal Cert.KernelIdeal.Gen Cert.MaskedSum
open Idealize.ShloMosaic.Pipeline (Dat)

variable (m : (ℓ : Loc nD τ sig) → Buf (Elt Ideal) ℓ) (ρ : Dev nD → PrngReg)

/-- adding the trailing unit axis to R gives G -/
theorem bcast_R (z : EReal) (x : SX.Idx → EReal) (M : SM.Idx → EReal) :
    broadcastInDim S32x512x512x1 ![0, 1, 2] bcast_S32x512x512_S32x512x512x1_0_1_2 (R z x M : S32x512x512.Idx → EReal) = (G z x M : S32x512x512x1.Idx → EReal) := by
  funext j
  -- the operand index under result index (b, h, w, u) is (b, h, w): no operand axis has extent one
  refine (broadcastInDim_apply _ _ (R z x M : S32x512x512.Idx → EReal) j (ix3 (j 0 : Fin 32) (j 1 : Fin 512) (j 2 : Fin 512)) ?_).trans ?_
  · intro a
    match a with
    | ⟨0, _⟩ => rfl
    | ⟨1, _⟩ => rfl
    | ⟨2, _⟩ => rfl
  · rfl

/-- The result buffer after the host line that follows the region: the region's output array, which holds R,
    with the trailing unit axis added, which is G. -/
theorem tail_result (z : EReal) (X : Dev nD → SX.Idx → EReal) (Mk : Dev nD → SM.Idx → EReal)
    (hfinal : ∀ c : Dev nD, ((dats m 0 c).arrAt 2 cfg0.N : S32x512x512.Idx → EReal) = R z (X c) (Mk c)) (c : Dev nD) :
    (Pipeline.afterTail₀ cfgs (dats m) 0 (V0 m) [hostOps1] c main_v24 : S32x512x512x1.Idx → EReal) = G z (X c) (Mk c) := by
  unfold Pipeline.afterTail₀
  show StableHlo.after hostOps1 _ (Proc.devRef .tc main_v24) = _
  after_results
  refine Eq.trans ?_ (bcast_R z (X c) (Mk c))
  refine congrArg (fun A : S32x512x512.Idx → EReal =>
    broadcastInDim S32x512x512x1 ![0, 1, 2] bcast_S32x512x512_S32x512x512x1_0_1_2 A) ?_
  exact (Pipeline.withArrays_arr spec0 launch0.win.arr_inj c _ _ 2).trans (hfinal c)

/-- The whole run: every execution ends with G in the result buffer (the region's output array holds R by
    hypothesis, the host line after the region adds the unit axis) and with the three arguments unchanged (no
    line writes them). -/
theorem run (z : EReal) (X : Dev nD → SX.Idx → EReal) (Mk : Dev nD → SM.Idx → EReal)
    (hfinal : ∀ c : Dev nD, ((dats m 0 c).arrAt 2 cfg0.N : S32x512x512.Idx → EReal) = R z (X c) (Mk c)) :
    θ_run defs (onTc (τ := τ) (main (F := Ideal))) ⟨m, fun _ => 0, ρ⟩ (fun r => ∀ c : Dev nD,
      (r.2.mem ((c.tc : Thread nD τ).loc main_v24) : S32x512x512x1.Idx → EReal) = G z (X c) (Mk c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v24 (Pipeline.mem_restRefs_of main_v24 (by decide) (by decide))).trans (tail_result m z X Mk hfinal c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Tail

end
-- ==== Proof.RefValue.lean ====
/-
  The reference computes the masked channel sum.

  The reference multiplies the image batch x [32, 512, 512, 4] by the mask M [1, 8, 8, 4] tiled to the image size
  and sums the four channels. The tiling is done by two changes of shape around a broadcast:

      M [1, 8, 8, 4]  --reshape-->  [1, 1, 1, 8, 1, 8, 1, 4]  --broadcast-->  [1, 1, 64, 8, 64, 8, 1, 4]
                      --reshape-->  [1, 512, 512, 4]

  A reshape keeps row-major positions. Entry (0, h, w, k) of the last shape sits at position (h * 512 + w) * 4 + k,
  which is the position of (0, 0, h / 8, h % 8, w / 8, w % 8, 0, k) in the broadcast shape, since
  h = 8 * (h / 8) + h % 8 and likewise for w. The broadcast forgets the two block coordinates h / 8 and w / 8, and
  (0, 0, 0, p, 0, q, 0, k) of the interleaved shape sits at position (p * 8 + q) * 4 + k, the position of
  (0, p, q, k) in the mask. So the tiled mask at (0, h, w, k) is M (0, h % 8, w % 8, k), and the reference's
  entry at (b, h, w, 0) is the starting value plus the sum over k of x (b, h, w, k) * M (0, h % 8, w % 8, k).
-/
import proofs.«144533_j22316650070837_1_alg».proof.Proof.Spec
import proofs.«144533_j22316650070837_1_alg».proof.Proof.Gen.ReferenceIdeal.Read
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Read Cert.MaskedSum

/-! ## Row-major positions at rank 8 -/

/-- Rank 8: the row-major position as one sum of products. -/
theorem rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5
          + (i 5).val) * d 6 + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

/-! ## The two changes of shape -/

/-- The index (0, 0, 0, p, 0, q, 0, k) of the mask with unit axes interleaved. -/
abbrev spread (p q : Fin 8) (k : Fin 4) : S1x1x1x8x1x8x1x4.Idx := fun a => match a with
  | ⟨0, _⟩ => (⟨0, Nat.one_pos⟩ : Fin 1)
  | ⟨1, _⟩ => (⟨0, Nat.one_pos⟩ : Fin 1)
  | ⟨2, _⟩ => (⟨0, Nat.one_pos⟩ : Fin 1)
  | ⟨3, _⟩ => p
  | ⟨4, _⟩ => (⟨0, Nat.one_pos⟩ : Fin 1)
  | ⟨5, _⟩ => q
  | ⟨6, _⟩ => (⟨0, Nat.one_pos⟩ : Fin 1)
  | ⟨7, _⟩ => k

/-- The index (0, 0, h / 8, h % 8, w / 8, w % 8, 0, k) of the mask repeated 64 times along both image axes. -/
abbrev blocked (h w : Fin 512) (k : Fin 4) : S1x1x64x8x64x8x1x4.Idx := fun a => match a with
  | ⟨0, _⟩ => (⟨0, Nat.one_pos⟩ : Fin 1)
  | ⟨1, _⟩ => (⟨0, Nat.one_pos⟩ : Fin 1)
  | ⟨2, _⟩ => (⟨h.val / 8, by have := h.isLt; omega⟩ : Fin 64)
  | ⟨3, _⟩ => tile h
  | ⟨4, _⟩ => (⟨w.val / 8, by have := w.isLt; omega⟩ : Fin 64)
  | ⟨5, _⟩ => tile w
  | ⟨6, _⟩ => (⟨0, Nat.one_pos⟩ : Fin 1)
  | ⟨7, _⟩ => k

/-- The first reshape reads (0, 0, 0, p, 0, q, 0, k) at (0, p, q, k): both sit at position (p * 8 + q) * 4 + k. -/
theorem reshape_spread {α : Type} (y : S1x8x8x4.Idx → α) (hc : S1x8x8x4.ShapeCasts S1x1x1x8x1x8x1x4)
    (p q : Fin 8) (k : Fin 4) :
    shapeCast S1x1x1x8x1x8x1x4 y hc (spread p q k) = y (ix4 (0 : Fin 1) p q k) := by
  refine shapeCast_apply y hc _ _ ?_
  rw [Shape.rowMajor_val_four, rowMajor_val_eight]
  show ((0 * 8 + p.val) * 8 + q.val) * 4 + k.val
    = ((((((0 * 1 + 0) * 1 + 0) * 8 + p.val) * 1 + 0) * 8 + q.val) * 1 + 0) * 4 + k.val
  omega

/-- The second reshape reads (0, h, w, k) at (0, 0, h / 8, h % 8, w / 8, w % 8, 0, k): both sit at position
    (h * 512 + w) * 4 + k, because h = 8 * (h / 8) + h % 8 and w = 8 * (w / 8) + w % 8. -/
theorem reshape_blocked {α : Type} (y : S1x1x64x8x64x8x1x4.Idx → α)
    (hc : S1x1x64x8x64x8x1x4.ShapeCasts S1x512x512x4) (h w : Fin 512) (k : Fin 4) :
    shapeCast S1x512x512x4 y hc (ix4 (0 : Fin 1) h w k) = y (blocked h w k) := by
  refine shapeCast_apply y hc _ _ ?_
  rw [Shape.rowMajor_val_four, rowMajor_val_eight]
  show ((((((0 * 1 + 0) * 64 + h.val / 8) * 8 + h.val % 8) * 64 + w.val / 8) * 8 + w.val % 8) * 1 + 0) * 4 + k.val
    = ((0 * 512 + h.val) * 512 + w.val) * 4 + k.val
  omega

/-- The broadcast between them forgets the block coordinates h / 8 and w / 8. -/
theorem idx_blocked (h w : Fin 512) (k : Fin 4) : idx_main_v18 (blocked h w k) = spread (tile h) (tile w) k := by
  funext a
  match a with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-! ## The tiled mask and the result -/

/-- The tiled mask at (0, h, w, k) is the mask at (0, h % 8, w % 8, k). -/
theorem v19_apply (x1 x2 : (⟨S1x8x8x4, .f32⟩ : BufTy).Contents (Elt Ideal)) (h w : Fin 512) (k : Fin 4) :
    val_main_v19 (F := Ideal) x1 x2 (ix4 (0 : Fin 1) h w k)
      = val_main_v16 (F := Ideal) x1 x2 (ix4 (0 : Fin 1) (tile h) (tile w) k) := by
  unfold val_main_v19
  refine (reshape_blocked _ _ h w k).trans ?_
  refine (val_main_v18_apply x1 x2 _).trans ?_
  refine (congrArg _ (idx_blocked h w k)).trans ?_
  unfold val_main_v17
  exact reshape_spread _ _ _ _ _

/-- The reference at (b, h, w, 0): the starting value plus the four channel terms. -/
theorem v23_point (x0 : (⟨S32x512x512x4, .f32⟩ : BufTy).Contents (Elt Ideal))
    (x1 x2 : (⟨S1x8x8x4, .f32⟩ : BufTy).Contents (Elt Ideal)) (b : Fin 32) (h w : Fin 512) (u : Fin 1) :
    val_main_v23 (F := Ideal) x0 x1 x2 (ix4 b h w u)
      = pixel (Ideal.ofBits .f32 0x00000000#32) x0 (val_main_v16 (F := Ideal) x1 x2) b h w := by
  refine (val_main_v23_apply x0 x1 x2 _).trans ?_
  refine (val_main_v22_apply x0 x1 x2 _).trans ?_
  unfold pixel
  refine congr (congrArg _ rfl) (Finset.sum_congr rfl fun k _ => ?_)
  have hi : idx_main_v22 (idx_main_v23 (ix4 b h w u)) k = ix4 b h w k := by
    funext a
    match a with
    | ⟨0, _⟩ => rfl
    | ⟨1, _⟩ => rfl
    | ⟨2, _⟩ => rfl
    | ⟨3, _⟩ => rfl
  refine (congrArg _ hi).trans ?_
  refine (val_main_v21_apply x0 x1 x2 _).trans ?_
  unfold term
  refine congrArg (x0 (ix4 b h w k) * ·) ?_
  refine (val_main_v20_apply x1 x2 _).trans ?_
  have hj : idx_main_v20 (ix4 b h w k) = ix4 (0 : Fin 1) h w k := by
    funext a
    match a with
    | ⟨0, _⟩ => rfl
    | ⟨1, _⟩ => rfl
    | ⟨2, _⟩ => rfl
    | ⟨3, _⟩ => rfl
  refine (congrArg _ hj).trans ?_
  exact v19_apply x1 x2 h w k

/-- The reference computes the masked channel sum started from the word 0. -/
theorem ref_is_G (x0 : (⟨S32x512x512x4, .f32⟩ : BufTy).Contents (Elt Ideal))
    (x1 x2 : (⟨S1x8x8x4, .f32⟩ : BufTy).Contents (Elt Ideal)) :
    val_main_v23 (F := Ideal) x0 x1 x2
      = G (Ideal.ofBits .f32 0x00000000#32) x0 (val_main_v16 (F := Ideal) x1 x2) := by
  funext i
  rw [eq_ix4 i]
  exact v23_point x0 x1 x2 (i 0) (i 1) (i 2) (i 3)

end Cert.ReferenceIdeal.RefValue

end
-- ==== Proof.lean ====
/-
  The masked channel sum, computed two ways, is one function of the inputs on the extended reals.

  Inputs: an image batch x of shape [32, 512, 512, 4] and two [1, 8, 8, 4] arrays from which both programs build the
  same mask M = 1 / (1 + exp (-(12 (1 / (1 + exp (-(5 w))) - thresh)))) with the same operations and constants.
  The result, of shape [32, 512, 512, 1], is at (b, h, w, 0)

      0 + sum over k < 4 of x (b, h, w, k) * M (0, h mod 8, w mod 8, k).

  The reference repeats the mask over the image, multiplies, and sums the channel axis at once. The kernel moves the
  channel axis of both arrays to the front, and for each group of four images runs through the four channels, adding
  each channel's product into a block of running sums that starts from zero and is written back after the fourth
  channel; a trailing unit axis is added at the end. After channel j of a group the block holds zero plus the
  products of channels 0 … j, so the block written back holds the channel sums of its four images, and the eight
  blocks written back are the whole array. Both sides are the same sum of the same four products of extended reals
  (addition there is commutative and associative), and the mask is one function of the two small inputs that is
  never opened. No finiteness of the inputs is used.

  The three programs run, fault-free, with their arguments unchanged; the idealized kernel is the kernel's own text
  read on the extended reals (no rewrite was applied).
-/
import proofs.«144533_j22316650070837_1_alg».proof.Defs
import proofs.«144533_j22316650070837_1_alg».proof.Proof.Gen.Kernel
import proofs.«144533_j22316650070837_1_alg».proof.Proof.Gen.Kernel.Skeleton
import proofs.«144533_j22316650070837_1_alg».proof.Proof.Gen.Kernel.Launch
import proofs.«144533_j22316650070837_1_alg».proof.Proof.Gen.Kernel.Points
import proofs.«144533_j22316650070837_1_alg».proof.Proof.Gen.Kernel.Frame
import proofs.«144533_j22316650070837_1_alg».proof.Proof.Gen.KernelIdeal
import proofs.«144533_j22316650070837_1_alg».proof.Proof.Gen.KernelIdeal.Skeleton
import proofs.«144533_j22316650070837_1_alg».proof.Proof.Gen.KernelIdeal.Launch
import proofs.«144533_j22316650070837_1_alg».proof.Proof.Gen.KernelIdeal.Points
import proofs.«144533_j22316650070837_1_alg».proof.Proof.Gen.KernelIdeal.Frame
import proofs.«144533_j22316650070837_1_alg».proof.Proof.Gen.ReferenceIdeal
import proofs.«144533_j22316650070837_1_alg».proof.Proof.Gen.ReferenceIdeal.Run
import proofs.«144533_j22316650070837_1_alg».proof.Proof.Gen.ReferenceIdeal.Read
import proofs.«144533_j22316650070837_1_alg».proof.Proof.Gen.Pre_finite_inputs
import proofs.«144533_j22316650070837_1_alg».proof.Proof.Spec
import proofs.«144533_j22316650070837_1_alg».proof.Proof.Final
import proofs.«144533_j22316650070837_1_alg».proof.Proof.KPrefix
import proofs.«144533_j22316650070837_1_alg».proof.Proof.KTail
import proofs.«144533_j22316650070837_1_alg».proof.Proof.RefValue
import Idealize.ShloMosaic.Adequacy
import Idealize.ShloMosaic.Init

noncomputable section

namespace Cert.Proof

open Idealize.ShloMosaic Idealize.ShloMosaic.TcCoe Idealize.SL.Sem Cert.MaskedSum

/-- The value both sums start from. -/
abbrev zero : EReal := Ideal.ofBits .f32 0x00000000#32

/-- The mask a memory's two small arguments determine: one function, the same for both programs. -/
abbrev maskOf (m : (ℓ : Loc Cert.KernelIdeal.nD Cert.KernelIdeal.τ Cert.KernelIdeal.sig) → Buf (Elt Ideal) ℓ) (c : Dev Cert.KernelIdeal.nD) :
    SM.Idx → EReal :=
  Cert.ReferenceIdeal.Read.val_main_v16 (F := Ideal)
    (m ((c : Thread Cert.KernelIdeal.nD Cert.KernelIdeal.τ).loc Cert.KernelIdeal.main_arg1))
    (m ((c : Thread Cert.KernelIdeal.nD Cert.KernelIdeal.τ).loc Cert.KernelIdeal.main_arg2))

/-- The image batch a memory holds. -/
abbrev imageOf (m : (ℓ : Loc Cert.KernelIdeal.nD Cert.KernelIdeal.τ Cert.KernelIdeal.sig) → Buf (Elt Ideal) ℓ) (c : Dev Cert.KernelIdeal.nD) :
    SX.Idx → EReal :=
  m ((c : Thread Cert.KernelIdeal.nD Cert.KernelIdeal.τ).loc Cert.KernelIdeal.main_arg0)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- What the kernel's region reads: the image batch with its channel axis moved, and the repeated mask. -/
theorem reads (m : (ℓ : Loc Cert.KernelIdeal.nD Cert.KernelIdeal.τ Cert.KernelIdeal.sig) → Buf (Elt Ideal) ℓ) (c : Dev Cert.KernelIdeal.nD) :
    Cert.KernelIdeal.Final.Reads m c (imageOf m c) (maskOf m c) :=
  ⟨Cert.KernelIdeal.Prefix.xt_apply m c, Cert.KernelIdeal.Prefix.maskt_apply m c⟩

/-- Both runs end at the masked channel sum of arguments that agree: the kernel's region leaves every pixel's sum in
    its output array and the line after it adds the unit axis; the reference's last stage is the same function. -/
theorem algebraic : Cert.algebraic_KernelIdeal_ReferenceIdeal := by
  intro m ρ m' ρ' _ hagree
  refine ⟨fun c => G zero (imageOf m c) (maskOf m c),
    Cert.KernelIdeal.Tail.run m ρ zero (imageOf m) (maskOf m) (fun c => Cert.KernelIdeal.Final.final (reads m c)), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.ref_is_G, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
